-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x64 : Shape := ⟨2, ![1, 64]⟩
abbrev S5000x64 : Shape := ⟨2, ![5000, 64]⟩
abbrev S1650000x64 : Shape := ⟨2, ![1650000, 64]⟩

abbrev nBuf : Space → Nat
  | .hbm => 105
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x64, .f32⟩
  | .hbm, ⟨58, _⟩ => ⟨S1650000x1, .f32⟩
  | .hbm, ⟨59, _⟩ => ⟨S1650000x64, .f32⟩
  | .hbm, ⟨60, _⟩ => ⟨S1650000x64, .f32⟩
  | .hbm, ⟨61, _⟩ => ⟨S_, .f32⟩
  | .hbm, ⟨62, _⟩ => ⟨S50000x64, .f32⟩
  | .hbm, ⟨63, _⟩ => ⟨S1650000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x64, .f32⟩
  | .hbm, ⟨77, _⟩ => ⟨S1650000x1, .f32⟩
  | .hbm, ⟨78, _⟩ => ⟨S1650000x64, .f32⟩
  | .hbm, ⟨79, _⟩ => ⟨S1650000x64, .f32⟩
  | .hbm, ⟨80, _⟩ => ⟨S_, .f32⟩
  | .hbm, ⟨81, _⟩ => ⟨S50000x64, .f32⟩
  | .hbm, ⟨82, _⟩ => ⟨S1650000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .i32⟩
  | .hbm, ⟨88, _⟩ => ⟨S1650000, .i32⟩
  | .hbm, ⟨89, _⟩ => ⟨S1650000, .i1⟩
  | .hbm, ⟨90, _⟩ => ⟨S_, .i32⟩
  | .hbm, ⟨91, _⟩ => ⟨S1650000, .i32⟩
  | .hbm, ⟨92, _⟩ => ⟨S1650000, .i32⟩
  | .hbm, ⟨93, _⟩ => ⟨S1650000, .i32⟩
  | .hbm, ⟨94, _⟩ => ⟨S1650000x1, .i32⟩
  | .hbm, ⟨95, _⟩ => ⟨S1650000x64, .f32⟩
  | .hbm, ⟨96, _⟩ => ⟨S1650000x1, .f32⟩
  | .hbm, ⟨97, _⟩ => ⟨S1650000x64, .f32⟩
  | .hbm, ⟨98, _⟩ => ⟨S1650000x64, .f32⟩
  | .hbm, ⟨99, _⟩ => ⟨S_, .f32⟩
  | .hbm, ⟨100, _⟩ => ⟨S50000x64, .f32⟩
  | .hbm, ⟨101, _⟩ => ⟨S1650000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x64_S64x64_S5000x64_1_0_0_1_n_n_wf : DotDims.WF S5000x64 S64x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x64 : Shape := ⟨2, ![1, 64]⟩
abbrev S1650000x64 : Shape := ⟨2, ![1650000, 64]⟩

abbrev nBuf : Space → Nat
  | .hbm => 119
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x64, .f32⟩
  | .hbm, ⟨63, _⟩ => ⟨S1650000x1, .f32⟩
  | .hbm, ⟨64, _⟩ => ⟨S1650000x64, .f32⟩
  | .hbm, ⟨65, _⟩ => ⟨S1650000x64, .f32⟩
  | .hbm, ⟨66, _⟩ => ⟨S_, .f32⟩
  | .hbm, ⟨67, _⟩ => ⟨S50000x64, .f32⟩
  | .hbm, ⟨68, _⟩ => ⟨S1650000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x64, .f32⟩
  | .hbm, ⟨86, _⟩ => ⟨S1650000x1, .f32⟩
  | .hbm, ⟨87, _⟩ => ⟨S1650000x64, .f32⟩
  | .hbm, ⟨88, _⟩ => ⟨S1650000x64, .f32⟩
  | .hbm, ⟨89, _⟩ => ⟨S_, .f32⟩
  | .hbm, ⟨90, _⟩ => ⟨S50000x64, .f32⟩
  | .hbm, ⟨91, _⟩ => ⟨S1650000x1, .i32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S50000x64, .f32⟩
  | .hbm, ⟨100, _⟩ => ⟨S_, .i32⟩
  | .hbm, ⟨101, _⟩ => ⟨S1650000, .i32⟩
  | .hbm, ⟨102, _⟩ => ⟨S1650000, .i1⟩
  | .hbm, ⟨103, _⟩ => ⟨S_, .i32⟩
  | .hbm, ⟨104, _⟩ => ⟨S1650000, .i32⟩
  | .hbm, ⟨105, _⟩ => ⟨S1650000, .i32⟩
  | .hbm, ⟨106, _⟩ => ⟨S1650000, .i32⟩
  | .hbm, ⟨107, _⟩ => ⟨S1650000x1, .i32⟩
  | .hbm, ⟨108, _⟩ => ⟨S1650000x64, .f32⟩
  | .hbm, ⟨109, _⟩ => ⟨S1650000x1, .f32⟩
  | .hbm, ⟨110, _⟩ => ⟨S1650000x64, .f32⟩
  | .hbm, ⟨111, _⟩ => ⟨S1650000x64, .f32⟩
  | .hbm, ⟨112, _⟩ => ⟨S_, .f32⟩
  | .hbm, ⟨113, _⟩ => ⟨S50000x64, .f32⟩
  | .hbm, ⟨114, _⟩ => ⟨S1650000x1, .i32⟩
  | .hbm, ⟨115, _⟩ => ⟨S50000x64, .f32⟩
  | .hbm, ⟨116, _⟩ => ⟨S1x64, .f32⟩
  | .hbm, ⟨117, _⟩ => ⟨S50000x64, .f32⟩
  | .hbm, ⟨118, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1650000x1_S1650000x64_0_1 : S1650000x1.BroadcastsInDim S1650000x64 (![0, 1] : Fin 2 → Fin S1650000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x64_S64x64_S50000x64_1_0_0_1_n_n_wf : DotDims.WF S50000x64 S64x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel's run, with its result named.

  The program is eleven segments: four stretches of host operations and seven regions. The buffer contents at each
  boundary are a fold from the launch memory (a stretch applies its operations, a region replaces its arrays by what
  its write-backs leave). Every weakly fair execution terminates without a fault with every unscoped buffer at the last
  boundary's contents; read at the result buffer that is the last region's output array, and at each argument its launch
  contents.
-/
import proofs.«146050_j71244917506340_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments, the final state read at the result buffer and at each argument. -/
theorem run : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.Blocks.lean ====
/-
  The seven kernel bodies, read at the coordinates of a block.

  Every body works on one block of 5000 rows and 64 columns. On the extended reals (where a change of float format is the
  identity) the three kinds of body compute, at row `a` and column `b` of the block,

    * the dense layer:      max (∑ k, x (a, k) · w (k, b) + β (0, b)) 0   — a product into a zero accumulator, the bias row
                            broadcast down the rows, then the maximum with zero;
    * the plain product:    ∑ k, x (a, k) · w (k, b);
    * the bias stage:       max (x (a, b) + β (0, b)) 0, and in the last layer x (a, b) + β (0, b) with no maximum.

  The product is read through the four coordinate facts of the block's dimension record (contract the left operand's
  columns with the right operand's rows, keep the other two axes in order).
-/
import proofs.«146050_j71244917506340_1_alg».proof.Proof.Gen.KernelIdeal.Skeleton
import proofs.«146050_j71244917506340_1_alg».proof.Proof.LibPlainDot
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.ValueIdx

/-! ## The block product's dimension record -/

local notation "kd" => dot_S5000x64_S64x64_S5000x64_1_0_0_1_n_n

theorem kd_l0 (i : S5000x64.Idx) (q : (kd).contr.Idx) : ((kd).lhsIdx i q 0).val = (i 0).val := by
  unfold DotDims.lhsIdx
  rw [dif_neg (show ¬(0 : Fin S5000x64.rank) ∈ (kd).lhsBatch by decide), dif_pos (show (0 : Fin S5000x64.rank) ∈ (kd).lhsNonContracting by decide)]
  rfl
theorem kd_l1 (i : S5000x64.Idx) (q : (kd).contr.Idx) : ((kd).lhsIdx i q 1).val = (q ⟨0, by decide⟩).val :=
  (kd).lhsIdx_val_of_single rfl i q
theorem kd_r0 (i : S5000x64.Idx) (q : (kd).contr.Idx) : ((kd).rhsIdx i q 0).val = (q ⟨0, by decide⟩).val :=
  (kd).rhsIdx_val_of_single rfl i q
theorem kd_r1 (i : S5000x64.Idx) (q : (kd).contr.Idx) : ((kd).rhsIdx i q 1).val = (i 1).val := by
  unfold DotDims.rhsIdx
  rw [dif_neg (show ¬(1 : Fin S64x64.rank) ∈ (kd).rhsBatch by decide), dif_pos (show (1 : Fin S64x64.rank) ∈ (kd).rhsNonContracting by decide)]
  rfl

/-- The block product into the zero accumulator at `(a, b)`, whatever float formats the operands were cast to. -/
theorem blockProduct {φ₁ φ₂ : FTy} (l : FVec Ideal S5000x64 φ₁) (r : FVec Ideal S64x64 φ₂) (a : Fin 5000) (b : Fin 64) :
    matmul (kd) none l r (constant (F := Ideal) S5000x64 .f32 0x00000000#32) (ix2 a b) = ∑ k : Fin 64, l (ix2 a k) * r (ix2 k b) :=
  Cert.Lib.PlainDot.matmul_zero_ix2 (kd) rfl rfl kd_l0 kd_l1 kd_r0 kd_r1 none l r a b

/-- The zero the bodies take the maximum with. -/
abbrev zero : EReal := (Scalar.ofBits (F := Ideal) .f32 0x00000000#32 : Ideal .f32)

/-! ## The three kinds of body at `(a, b)` -/

/-- The dense layer's block: product, bias row, maximum with zero. -/
theorem dense_at (x : Vec Ideal S5000x64 .f32) (w : Vec Ideal S64x64 .f32) (β : Vec Ideal S1x64 .f32) (a : Fin 5000) (b : Fin 64) :
    k0_pay1 x w β (ix2 a b) = max ((∑ k : Fin 64, x (ix2 a k) * w (ix2 k b)) + β (ix2 (0 : Fin 1) b)) zero := by
  unfold k0_pay1
  rw [maximumf_apply, addf_apply, blockProduct, shapeCast_self, broadcastTo_1b_ab_apply, broadcast_apply]
  rfl

/-- The plain product's block. -/
theorem product_at (x : Vec Ideal S5000x64 .f32) (w : Vec Ideal S64x64 .f32) (a : Fin 5000) (b : Fin 64) :
    k1_pay1 x w (ix2 a b) = ∑ k : Fin 64, x (ix2 a k) * w (ix2 k b) := by
  unfold k1_pay1
  rw [blockProduct, shapeCast_self]
  rfl
theorem k3_eq : @k3_pay1 Ideal _ = @k1_pay1 Ideal _ := rfl
theorem k5_eq : @k5_pay1 Ideal _ = @k1_pay1 Ideal _ := rfl

/-- The bias stage's block, with the maximum. -/
theorem biasMax_at (x : Vec Ideal S5000x64 .f32) (β : Vec Ideal S1x64 .f32) (a : Fin 5000) (b : Fin 64) :
    k2_pay1 x β (ix2 a b) = max (x (ix2 a b) + β (ix2 (0 : Fin 1) b)) zero := by
  unfold k2_pay1
  rw [maximumf_apply, addf_apply, shapeCast_self, shapeCast_self, broadcastTo_1b_ab_apply, broadcast_apply]
theorem k4_eq : @k4_pay1 Ideal _ = @k2_pay1 Ideal _ := rfl

/-- The last bias stage's block: no maximum. -/
theorem bias_at (x : Vec Ideal S5000x64 .f32) (β : Vec Ideal S1x64 .f32) (a : Fin 5000) (b : Fin 64) :
    k6_pay1 x β (ix2 a b) = x (ix2 a b) + β (ix2 (0 : Fin 1) b) := by
  unfold k6_pay1
  rw [addf_apply, shapeCast_self, shapeCast_self, broadcastTo_1b_ab_apply]

end Cert.KernelIdeal.Blocks

end
-- ==== Proof.LibHostDot.lean ====
/-
  A host matrix product, read at coordinates.

  For a host `dot_general` of a `[M, K]` matrix with a `[K, N]` matrix whose dimension numbers contract the left operand's
  second axis with the right operand's first and keep the other two in order, the product is, at `(p, c)`,

      ∑ k : Fin K, l (p, k) · r (k, c)

  on the extended reals, whatever the schedule key. The dimension record enters only through four facts about its operand
  indices — the left index at output index `i` and contraction position `q` is `(i 0, q)`, the right one `(q, i 1)` —
  which a concrete record proves by unfolding; with them the sum over the record's one-axis contraction shape is
  re-indexed over `Fin K`.
-/
import Idealize.ShloMosaic.PureOps.Ideal.Laws
import Idealize.ShloMosaic.Lib.ValueIdx

namespace Cert.Lib.HostDot

open Idealize.ShloMosaic Idealize.ShloMosaic.ValueIdx

/-- The host product of an `[M, K]` and a `[K, N]` matrix at `(p, c)`: the sum over `k` of `l (p, k) · r (k, c)`. -/
theorem dotGeneral_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (sched : HostSchedule)
    (l : FVec Ideal ⟨2, ![M, K]⟩ φ₁) (r : FVec Ideal ⟨2, ![K, N]⟩ φ₂) (p : Fin M) (c : Fin N) :
    FloatOps.dotGeneral D prec sched l r (ix2 p c) = ∑ k : Fin K, l (ix2 p k) * r (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.HostDot
-- ==== Proof.RefOps.lean ====
/-
  The reference's dense stages, read at coordinates.

  On the extended reals the reference's matrix product is, at row `p` and column `q`, the sum over `k` of
  `h (p, k) · w (k, q)`; a bias vector laid out as a row and broadcast down the 50000 rows reads `b q` at `(p, q)`; the
  `relu` is the maximum with the zero splat. So the reference's layers are, entry by entry,

    * the first layer:       max (∑ k, x (p, k) · w (k, q) + b q) 0,
    * a hidden layer's end:  max (agg (p, q) + b q) 0      for whatever the aggregation `agg` left,
    * the last layer's end:  agg (p, q) + b q.

  `blockRow t a` is row `a` of the `t`-th block of 5000 rows.
-/
import proofs.«146050_j71244917506340_1_alg».proof.Proof.Gen.ReferenceIdeal.Read
import proofs.«146050_j71244917506340_1_alg».proof.Proof.LibHostDot

noncomputable section

namespace Cert.Bridge

open Idealize.ShloMosaic Idealize.ShloMosaic.ValueIdx Cert.ReferenceIdeal Cert.ReferenceIdeal.Read

local notation "rd" => Cert.ReferenceIdeal.dot_S50000x64_S64x64_S50000x64_1_0_0_1_n_n

/-- Row `a` of the `t`-th block of 5000 rows, of ten. -/
def blockRow (t : Fin 10) (a : Fin 5000) : Fin 50000 := ⟨t.val * 5000 + a.val, by omega⟩

/-- The zero of the `relu`. -/
abbrev zero : EReal := (Scalar.ofBits (F := Ideal) .f32 0x00000000#32 : Ideal .f32)

/-- The reference's product at `(p, q)`. -/
theorem product_at (h : FVec Ideal S50000x64 .f32) (w : FVec Ideal S64x64 .f32) (p : Fin 50000) (q : Fin 64) :
    Host.dotGeneral rd none h w (ix2 p q) = ∑ k : Fin 64, h (ix2 p k) * w (ix2 k q) := by
  simp only [Host.dotGeneral]
  exact Cert.Lib.HostDot.dotGeneral_ix2 rd rfl rfl lhs_main_v29_0 lhs_main_v29_1 rhs_main_v29_0 rhs_main_v29_1 none _ h w p q

/-- A bias vector as a row, broadcast down the rows, at `(p, q)`. -/
theorem biasRows_at (b : FVec Ideal S64 .f32) (p : Fin 50000) (q : Fin 64) :
    val_main_v31 (F := Ideal) b (ix2 p q) = b (ix1 q) := by
  rw [val_main_v31_apply, val_main_v30_apply]
  exact congrArg b (funext fun a => match a with | ⟨0, _⟩ => rfl)
theorem bias1_eq (b : FVec Ideal S64 .f32) : val_main_v49 (F := Ideal) b = val_main_v31 (F := Ideal) b := rfl
theorem bias2_eq (b : FVec Ideal S64 .f32) : val_main_v67 (F := Ideal) b = val_main_v31 (F := Ideal) b := rfl
theorem bias3_eq (b : FVec Ideal S64 .f32) : val_main_v85 (F := Ideal) b = val_main_v31 (F := Ideal) b := rfl

/-- The zero splat at any entry. -/
theorem zeros_at (i : S50000x64.Idx) : val_main_call0_v0 (F := Ideal) i = zero := by
  rw [val_main_call0_v0_apply]; rfl
theorem zeros1_eq : val_main_call1_v0 (F := Ideal) = val_main_call0_v0 (F := Ideal) := rfl
theorem zeros2_eq : val_main_call2_v0 (F := Ideal) = val_main_call0_v0 (F := Ideal) := rfl

/-- The first layer at `(p, q)`. -/
theorem dense_at (x : FVec Ideal S50000x64 .f32) (w : FVec Ideal S64x64 .f32) (b : FVec Ideal S64 .f32) (p : Fin 50000) (q : Fin 64) :
    val_main_v33 (F := Ideal) x w b (ix2 p q) = max ((∑ k : Fin 64, x (ix2 p k) * w (ix2 k q)) + b (ix1 q)) zero := by
  show max (Host.dotGeneral rd none x w (ix2 p q) + val_main_v31 (F := Ideal) b (ix2 p q)) (val_main_call0_v0 (F := Ideal) (ix2 p q)) = _
  rw [product_at, biasRows_at, zeros_at]

/-- A hidden layer's end at `(p, q)`. -/
theorem biasMax_at (agg : FVec Ideal S50000x64 .f32) (b : FVec Ideal S64 .f32) (p : Fin 50000) (q : Fin 64) :
    maximumf (addf agg (val_main_v31 (F := Ideal) b)) (val_main_call0_v0 (F := Ideal)) (ix2 p q) = max (agg (ix2 p q) + b (ix1 q)) zero := by
  show max (agg (ix2 p q) + val_main_v31 (F := Ideal) b (ix2 p q)) (val_main_call0_v0 (F := Ideal) (ix2 p q)) = _
  rw [biasRows_at, zeros_at]

/-- The last layer's end at `(p, q)`. -/
theorem bias_at (agg : FVec Ideal S50000x64 .f32) (b : FVec Ideal S64 .f32) (p : Fin 50000) (q : Fin 64) :
    addf agg (val_main_v31 (F := Ideal) b) (ix2 p q) = agg (ix2 p q) + b (ix1 q) := by
  show agg (ix2 p q) + val_main_v31 (F := Ideal) b (ix2 p q) = _
  rw [biasRows_at]

end Cert.Bridge

end
-- ==== Proof.Region0.lean ====
/-
  The first region (`max (x · W + b) 0`), as one array.

  The region walks ten blocks of 5000 rows of `x`; the weight matrix and the bias row are fetched whole at every point.
  Row `a` of block `t` is row `5000 t + a` of the array, so what point `t` writes back is block `t` of the reference's first
  layer of the arrays the region finds, once the bias row it finds is known to hold the bias vector; the ten blocks tile
  the 50000 rows.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg0.N = 10 := N_0

/-- The printed index maps over the grid: the row blocks follow the point, everything else sits at block 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Row `a`, column `k` of the input block at point `t` is row `5000 t + a` of the array. -/
theorem in0_at (c : Dev nD) (t : Fin cfg0.N) (a : Fin 5000) (k : Fin 64) :
    iblk0 V c 0 t (ix2 a k) = V c main_arg0 (ix2 (blockRow (Fin.cast hN t) a) k) := by
  obtain ⟨e0, e1, -, -, -, -, -, -⟩ := idx_facts t
  show V c main_arg0 (((cfg0.win 0).blk t).view.emb (ix2 a k)) = V c main_arg0 (ix2 (blockRow (Fin.cast hN t) a) k)
  refine congrArg (V c main_arg0) (funext fun d => Fin.ext ?_)
  match d with
  | ⟨0, _⟩ => show win0_0.index t (0 : Fin 2) * 5000 + 1 * a.val = t.val * 5000 + a.val; rw [e0]; omega
  | ⟨1, _⟩ => show win0_0.index t (1 : Fin 2) * 64 + 1 * k.val = k.val; rw [e1]; omega

/-- Window 1's block at any point is its whole array. -/
theorem in1_at (c : Dev nD) (t : Fin cfg0.N) (k : Fin 64) (b : Fin 64) :
    iblk0 V c 1 t (ix2 k b) = V c main_arg2 (ix2 k b) := by
  obtain ⟨-, -, e2, e3, -, -, -, -⟩ := idx_facts t
  show V c main_arg2 (((cfg0.win 1).blk t).view.emb (ix2 k b)) = V c main_arg2 (ix2 k b)
  refine congrArg (V c main_arg2) (funext fun d => Fin.ext ?_)
  match d with
  | ⟨0, _⟩ => show win0_1.index t (0 : Fin 2) * 64 + 1 * k.val = k.val; rw [e2]; omega
  | ⟨1, _⟩ => show win0_1.index t (1 : Fin 2) * 64 + 1 * b.val = b.val; rw [e3]; omega

/-- Window 2's block at any point is its whole array. -/
theorem in2_at (c : Dev nD) (t : Fin cfg0.N) (k : Fin 1) (b : Fin 64) :
    iblk0 V c 2 t (ix2 k b) = V c main_v29 (ix2 k b) := by
  obtain ⟨-, -, -, -, e2, e3, -, -⟩ := idx_facts t
  show V c main_v29 (((cfg0.win 2).blk t).view.emb (ix2 k b)) = V c main_v29 (ix2 k b)
  refine congrArg (V c main_v29) (funext fun d => Fin.ext ?_)
  match d with
  | ⟨0, _⟩ => show win0_2.index t (0 : Fin 2) * 1 + 1 * k.val = k.val; rw [e2]; omega
  | ⟨1, _⟩ => show win0_2.index t (1 : Fin 2) * 64 + 1 * b.val = b.val; rw [e3]; omega

/-- What point `t` writes back is block `t` of the whole-array function. -/
theorem flushed_eq (c : Dev nD) (b : FVec Ideal Cert.ReferenceIdeal.S64 .f32)
    (hβ : ∀ q : Fin 64, V c main_v29 (ix2 (0 : Fin 1) q) = b (ix1 q)) (t : Fin cfg0.N) :
    (dat0 V c).flushed 3 t = ((cfg0.win 3).blk t).view.read (Elt Ideal) (Cert.ReferenceIdeal.Read.val_main_v33 (F := Ideal) (V c main_arg0) (V c main_arg2) b) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  funext y
  obtain ⟨a, b', rfl⟩ : ∃ (a : Fin 5000) (b' : Fin 64), y = ix2 a b' := ⟨y 0, y 1, eq_ix2 y⟩
  obtain ⟨-, -, -, -, -, -, eo0, eo1⟩ := idx_facts t
  have eo : ((cfg0.win 3).blk t).view.emb (ix2 a b') = ix2 (blockRow (Fin.cast hN t) a) b' := funext fun d => Fin.ext (by
    match d with
    | ⟨0, _⟩ => show win0_3.index t (0 : Fin 2) * 5000 + 1 * a.val = t.val * 5000 + a.val; rw [eo0]; omega
    | ⟨1, _⟩ => show win0_3.index t (1 : Fin 2) * 64 + 1 * b'.val = b'.val; rw [eo1]; omega)
  show k0_pay1 (iblk0 V c 0 t) (iblk0 V c 1 t) (iblk0 V c 2 t) (ix2 a b')
    = (Cert.ReferenceIdeal.Read.val_main_v33 (F := Ideal) (V c main_arg0) (V c main_arg2) b) (((cfg0.win 3).blk t).view.emb (ix2 a b'))
  rw [eo]
  refine (Blocks.dense_at _ _ _ a b').trans ?_
  refine Eq.trans ?_ (Cert.Bridge.dense_at _ _ _ _ b').symm
  rw [in2_at, hβ]
  exact congrArg (fun s => max (s + b (ix1 b')) Cert.Bridge.zero) (Finset.sum_congr rfl fun k _ => by rw [in0_at, in1_at])

/-- An index is in point `t`'s output block iff each coordinate is in the block's range. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v30).slice (win0_3.rect t)).set ↔ _
  rw [View.set_slice_whole, Rect.mem_set_unit]
  exact Iff.rfl

/-- Row `r` lies in block `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < cfg0.N := by rw [hN]; omega
  obtain ⟨-, -, -, -, -, -, eo0, eo1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [eo1]; omega

/-- The region's output array as one function of the arrays it finds. -/
theorem final (c : Dev nD) (b : FVec Ideal Cert.ReferenceIdeal.S64 .f32)
    (hβ : ∀ q : Fin 64, V c main_v29 (ix2 (0 : Fin 1) q) = b (ix1 q)) :
    (dat0 V c).arrAt 3 cfg0.N = Cert.ReferenceIdeal.Read.val_main_v33 (F := Ideal) (V c main_arg0) (V c main_arg2) b :=
  (dat0 V c).arrAt_eq_of_cover 3 _ (fun t _ => flushed_eq V c b hβ t) cover

end Cert.KernelIdeal.Region0

end
-- ==== Proof.Region1.lean ====
/-
  A product region (`h · W`), as one array.

  The region walks ten blocks of 5000 rows. Block `t` of the input array is rows `5000 t … 5000 t + 4999`, the weight
  matrix is fetched whole at every point, and block `t` of the output receives the block product. Row `a` of block `t` is
  row `5000 t + a` of the array, so what point `t` writes back is block `t` of the whole product of the arrays the region
  finds; the ten blocks tile the 50000 rows, so the output array ends as that product.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg1.N = 10 := N_1

/-- The printed index maps over the grid: the row blocks follow the point, everything else sits at block 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row `a`, column `k` of the input block at point `t` is row `5000 t + a` of the array. -/
theorem in0_at (c : Dev nD) (t : Fin cfg1.N) (a : Fin 5000) (k : Fin 64) :
    iblk1 V c 0 t (ix2 a k) = V c main_v30 (ix2 (blockRow (Fin.cast hN t) a) k) := by
  obtain ⟨e0, e1, -, -, -, -⟩ := idx_facts t
  show V c main_v30 (((cfg1.win 0).blk t).view.emb (ix2 a k)) = V c main_v30 (ix2 (blockRow (Fin.cast hN t) a) k)
  refine congrArg (V c main_v30) (funext fun d => Fin.ext ?_)
  match d with
  | ⟨0, _⟩ => show win1_0.index t (0 : Fin 2) * 5000 + 1 * a.val = t.val * 5000 + a.val; rw [e0]; omega
  | ⟨1, _⟩ => show win1_0.index t (1 : Fin 2) * 64 + 1 * k.val = k.val; rw [e1]; omega

/-- Window 1's block at any point is its whole array. -/
theorem in1_at (c : Dev nD) (t : Fin cfg1.N) (k : Fin 64) (b : Fin 64) :
    iblk1 V c 1 t (ix2 k b) = V c main_arg4 (ix2 k b) := by
  obtain ⟨-, -, e2, e3, -, -⟩ := idx_facts t
  show V c main_arg4 (((cfg1.win 1).blk t).view.emb (ix2 k b)) = V c main_arg4 (ix2 k b)
  refine congrArg (V c main_arg4) (funext fun d => Fin.ext ?_)
  match d with
  | ⟨0, _⟩ => show win1_1.index t (0 : Fin 2) * 64 + 1 * k.val = k.val; rw [e2]; omega
  | ⟨1, _⟩ => show win1_1.index t (1 : Fin 2) * 64 + 1 * b.val = b.val; rw [e3]; omega

/-- What point `t` writes back is block `t` of the whole-array function. -/
theorem flushed_eq (c : Dev nD) (t : Fin cfg1.N) :
    (dat1 V c).flushed 2 t = ((cfg1.win 2).blk t).view.read (Elt Ideal) (Host.dotGeneral (F := Ideal) (φ₁ := .f32) (φ₂ := .f32) rd none (V c main_v30) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg1.win 2).blk t).view.emb (ix2 a b') = ix2 (blockRow (Fin.cast hN t) a) b' := funext fun d => Fin.ext (by
    match d with
    | ⟨0, _⟩ => show win1_2.index t (0 : Fin 2) * 5000 + 1 * a.val = t.val * 5000 + a.val; rw [eo0]; omega
    | ⟨1, _⟩ => show win1_2.index t (1 : Fin 2) * 64 + 1 * b'.val = b'.val; rw [eo1]; omega)
  show k1_pay1 (iblk1 V c 0 t) (iblk1 V c 1 t) (ix2 a b')
    = (Host.dotGeneral (F := Ideal) (φ₁ := .f32) (φ₂ := .f32) rd none (V c main_v30) (V c main_arg4)) (((cfg1.win 2).blk t).view.emb (ix2 a b'))
  rw [eo]
  refine (Blocks.product_at _ _ a b').trans ?_
  refine Eq.trans ?_ (Cert.Bridge.product_at _ _ _ b').symm
  exact Finset.sum_congr rfl fun k _ => by rw [in0_at, in1_at]

/-- An index is in point `t`'s output block iff each coordinate is in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v31).slice (win1_2.rect t)).set ↔ _
  rw [View.set_slice_whole, Rect.mem_set_unit]
  exact Iff.rfl

/-- Row `r` lies in block `r / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 5000 < cfg1.N := by rw [hN]; omega
  obtain ⟨-, -, -, -, eo0, eo1⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [eo1]; omega

/-- The region's output array as one function of the arrays it finds. -/
theorem final (c : Dev nD) :
    (dat1 V c).arrAt 2 cfg1.N = Host.dotGeneral (F := Ideal) (φ₁ := .f32) (φ₂ := .f32) rd none (V c main_v30) (V c main_arg4) :=
  (dat1 V c).arrAt_eq_of_cover 2 _ (fun t _ => flushed_eq V c t) cover

end Cert.KernelIdeal.Region1

end
-- ==== Proof.Region2.lean ====
/-
  A bias region with the maximum (`max (agg + b) 0`), as one array.

  The region walks ten blocks of 5000 rows of the aggregated array; the bias row is fetched whole at every point. Row `a`
  of block `t` is row `5000 t + a` of the array, so what point `t` writes back is block `t` of `max (agg + b) 0` with the bias
  broadcast down the rows, once the bias row the region finds is known to hold the bias vector; the ten blocks tile the
  50000 rows.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg2.N = 10 := N_2

/-- The printed index maps over the grid: the row blocks follow the point, everything else sits at block 0. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row `a`, column `k` of the input block at point `t` is row `5000 t + a` of the array. -/
theorem in0_at (c : Dev nD) (t : Fin cfg2.N) (a : Fin 5000) (k : Fin 64) :
    iblk2 V c 0 t (ix2 a k) = V c main_v44 (ix2 (blockRow (Fin.cast hN t) a) k) := by
  obtain ⟨e0, e1, -, -, -, -⟩ := idx_facts t
  show V c main_v44 (((cfg2.win 0).blk t).view.emb (ix2 a k)) = V c main_v44 (ix2 (blockRow (Fin.cast hN t) a) k)
  refine congrArg (V c main_v44) (funext fun d => Fin.ext ?_)
  match d with
  | ⟨0, _⟩ => show win2_0.index t (0 : Fin 2) * 5000 + 1 * a.val = t.val * 5000 + a.val; rw [e0]; omega
  | ⟨1, _⟩ => show win2_0.index t (1 : Fin 2) * 64 + 1 * k.val = k.val; rw [e1]; omega

/-- Window 1's block at any point is its whole array. -/
theorem in1_at (c : Dev nD) (t : Fin cfg2.N) (k : Fin 1) (b : Fin 64) :
    iblk2 V c 1 t (ix2 k b) = V c main_v45 (ix2 k b) := by
  obtain ⟨-, -, e2, e3, -, -⟩ := idx_facts t
  show V c main_v45 (((cfg2.win 1).blk t).view.emb (ix2 k b)) = V c main_v45 (ix2 k b)
  refine congrArg (V c main_v45) (funext fun d => Fin.ext ?_)
  match d with
  | ⟨0, _⟩ => show win2_1.index t (0 : Fin 2) * 1 + 1 * k.val = k.val; rw [e2]; omega
  | ⟨1, _⟩ => show win2_1.index t (1 : Fin 2) * 64 + 1 * b.val = b.val; rw [e3]; omega

/-- What point `t` writes back is block `t` of the whole-array function. -/
theorem flushed_eq (c : Dev nD) (b : FVec Ideal Cert.ReferenceIdeal.S64 .f32)
    (hβ : ∀ q : Fin 64, V c main_v45 (ix2 (0 : Fin 1) q) = b (ix1 q)) (t : Fin cfg2.N) :
    (dat2 V c).flushed 2 t = ((cfg2.win 2).blk t).view.read (Elt Ideal) (maximumf (F := Ideal) (addf (F := Ideal) (φ := .f32) (V c main_v44) (Cert.ReferenceIdeal.Read.val_main_v31 (F := Ideal) b)) (Cert.ReferenceIdeal.Read.val_main_call0_v0 (F := Ideal))) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg2.win 2).blk t).view.emb (ix2 a b') = ix2 (blockRow (Fin.cast hN t) a) b' := funext fun d => Fin.ext (by
    match d with
    | ⟨0, _⟩ => show win2_2.index t (0 : Fin 2) * 5000 + 1 * a.val = t.val * 5000 + a.val; rw [eo0]; omega
    | ⟨1, _⟩ => show win2_2.index t (1 : Fin 2) * 64 + 1 * b'.val = b'.val; rw [eo1]; omega)
  show k2_pay1 (iblk2 V c 0 t) (iblk2 V c 1 t) (ix2 a b')
    = (maximumf (F := Ideal) (addf (F := Ideal) (φ := .f32) (V c main_v44) (Cert.ReferenceIdeal.Read.val_main_v31 (F := Ideal) b)) (Cert.ReferenceIdeal.Read.val_main_call0_v0 (F := Ideal))) (((cfg2.win 2).blk t).view.emb (ix2 a b'))
  rw [eo]
  refine (Blocks.biasMax_at _ _ a b').trans ?_
  refine Eq.trans ?_ (Cert.Bridge.biasMax_at _ _ _ b').symm
  rw [in0_at, in1_at, hβ]

/-- An index is in point `t`'s output block iff each coordinate is in the block's range. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row `r` lies in block `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 5000 < cfg2.N := by rw [hN]; omega
  obtain ⟨-, -, -, -, eo0, eo1⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [eo1]; omega

/-- The region's output array as one function of the arrays it finds. -/
theorem final (c : Dev nD) (b : FVec Ideal Cert.ReferenceIdeal.S64 .f32)
    (hβ : ∀ q : Fin 64, V c main_v45 (ix2 (0 : Fin 1) q) = b (ix1 q)) :
    (dat2 V c).arrAt 2 cfg2.N = maximumf (F := Ideal) (addf (F := Ideal) (φ := .f32) (V c main_v44) (Cert.ReferenceIdeal.Read.val_main_v31 (F := Ideal) b)) (Cert.ReferenceIdeal.Read.val_main_call0_v0 (F := Ideal)) :=
  (dat2 V c).arrAt_eq_of_cover 2 _ (fun t _ => flushed_eq V c b hβ t) cover

end Cert.KernelIdeal.Region2

end
-- ==== Proof.Region3.lean ====
/-
  A product region (`h · W`), as one array.

  The region walks ten blocks of 5000 rows. Block `t` of the input array is rows `5000 t … 5000 t + 4999`, the weight
  matrix is fetched whole at every point, and block `t` of the output receives the block product. Row `a` of block `t` is
  row `5000 t + a` of the array, so what point `t` writes back is block `t` of the whole product of the arrays the region
  finds; the ten blocks tile the 50000 rows, so the output array ends as that product.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg3.N = 10 := N_3

/-- The printed index maps over the grid: the row blocks follow the point, everything else sits at block 0. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Row `a`, column `k` of the input block at point `t` is row `5000 t + a` of the array. -/
theorem in0_at (c : Dev nD) (t : Fin cfg3.N) (a : Fin 5000) (k : Fin 64) :
    iblk3 V c 0 t (ix2 a k) = V c main_v46 (ix2 (blockRow (Fin.cast hN t) a) k) := by
  obtain ⟨e0, e1, -, -, -, -⟩ := idx_facts t
  show V c main_v46 (((cfg3.win 0).blk t).view.emb (ix2 a k)) = V c main_v46 (ix2 (blockRow (Fin.cast hN t) a) k)
  refine congrArg (V c main_v46) (funext fun d => Fin.ext ?_)
  match d with
  | ⟨0, _⟩ => show win3_0.index t (0 : Fin 2) * 5000 + 1 * a.val = t.val * 5000 + a.val; rw [e0]; omega
  | ⟨1, _⟩ => show win3_0.index t (1 : Fin 2) * 64 + 1 * k.val = k.val; rw [e1]; omega

/-- Window 1's block at any point is its whole array. -/
theorem in1_at (c : Dev nD) (t : Fin cfg3.N) (k : Fin 64) (b : Fin 64) :
    iblk3 V c 1 t (ix2 k b) = V c main_arg6 (ix2 k b) := by
  obtain ⟨-, -, e2, e3, -, -⟩ := idx_facts t
  show V c main_arg6 (((cfg3.win 1).blk t).view.emb (ix2 k b)) = V c main_arg6 (ix2 k b)
  refine congrArg (V c main_arg6) (funext fun d => Fin.ext ?_)
  match d with
  | ⟨0, _⟩ => show win3_1.index t (0 : Fin 2) * 64 + 1 * k.val = k.val; rw [e2]; omega
  | ⟨1, _⟩ => show win3_1.index t (1 : Fin 2) * 64 + 1 * b.val = b.val; rw [e3]; omega

/-- What point `t` writes back is block `t` of the whole-array function. -/
theorem flushed_eq (c : Dev nD) (t : Fin cfg3.N) :
    (dat3 V c).flushed 2 t = ((cfg3.win 2).blk t).view.read (Elt Ideal) (Host.dotGeneral (F := Ideal) (φ₁ := .f32) (φ₂ := .f32) rd none (V c main_v46) (V c main_arg6)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg3.win 2).blk t).view.emb (ix2 a b') = ix2 (blockRow (Fin.cast hN t) a) b' := funext fun d => Fin.ext (by
    match d with
    | ⟨0, _⟩ => show win3_2.index t (0 : Fin 2) * 5000 + 1 * a.val = t.val * 5000 + a.val; rw [eo0]; omega
    | ⟨1, _⟩ => show win3_2.index t (1 : Fin 2) * 64 + 1 * b'.val = b'.val; rw [eo1]; omega)
  show k3_pay1 (iblk3 V c 0 t) (iblk3 V c 1 t) (ix2 a b')
    = (Host.dotGeneral (F := Ideal) (φ₁ := .f32) (φ₂ := .f32) rd none (V c main_v46) (V c main_arg6)) (((cfg3.win 2).blk t).view.emb (ix2 a b'))
  rw [eo]
  rw [show @k3_pay1 Ideal _ = @k1_pay1 Ideal _ from rfl]
  refine (Blocks.product_at _ _ a b').trans ?_
  refine Eq.trans ?_ (Cert.Bridge.product_at _ _ _ b').symm
  exact Finset.sum_congr rfl fun k _ => by rw [in0_at, in1_at]

/-- An index is in point `t`'s output block iff each coordinate is in the block's range. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v47).slice (win3_2.rect t)).set ↔ _
  rw [View.set_slice_whole, Rect.mem_set_unit]
  exact Iff.rfl

/-- Row `r` lies in block `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have ht : (i 0).val / 5000 < cfg3.N := by rw [hN]; omega
  obtain ⟨-, -, -, -, eo0, eo1⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [eo1]; omega

/-- The region's output array as one function of the arrays it finds. -/
theorem final (c : Dev nD) :
    (dat3 V c).arrAt 2 cfg3.N = Host.dotGeneral (F := Ideal) (φ₁ := .f32) (φ₂ := .f32) rd none (V c main_v46) (V c main_arg6) :=
  (dat3 V c).arrAt_eq_of_cover 2 _ (fun t _ => flushed_eq V c t) cover

end Cert.KernelIdeal.Region3

end
-- ==== Proof.Region4.lean ====
/-
  A bias region with the maximum (`max (agg + b) 0`), as one array.

  The region walks ten blocks of 5000 rows of the aggregated array; the bias row is fetched whole at every point. Row `a`
  of block `t` is row `5000 t + a` of the array, so what point `t` writes back is block `t` of `max (agg + b) 0` with the bias
  broadcast down the rows, once the bias row the region finds is known to hold the bias vector; the ten blocks tile the
  50000 rows.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg4.N = 10 := N_4

/-- The printed index maps over the grid: the row blocks follow the point, everything else sits at block 0. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Row `a`, column `k` of the input block at point `t` is row `5000 t + a` of the array. -/
theorem in0_at (c : Dev nD) (t : Fin cfg4.N) (a : Fin 5000) (k : Fin 64) :
    iblk4 V c 0 t (ix2 a k) = V c main_v60 (ix2 (blockRow (Fin.cast hN t) a) k) := by
  obtain ⟨e0, e1, -, -, -, -⟩ := idx_facts t
  show V c main_v60 (((cfg4.win 0).blk t).view.emb (ix2 a k)) = V c main_v60 (ix2 (blockRow (Fin.cast hN t) a) k)
  refine congrArg (V c main_v60) (funext fun d => Fin.ext ?_)
  match d with
  | ⟨0, _⟩ => show win4_0.index t (0 : Fin 2) * 5000 + 1 * a.val = t.val * 5000 + a.val; rw [e0]; omega
  | ⟨1, _⟩ => show win4_0.index t (1 : Fin 2) * 64 + 1 * k.val = k.val; rw [e1]; omega

/-- Window 1's block at any point is its whole array. -/
theorem in1_at (c : Dev nD) (t : Fin cfg4.N) (k : Fin 1) (b : Fin 64) :
    iblk4 V c 1 t (ix2 k b) = V c main_v61 (ix2 k b) := by
  obtain ⟨-, -, e2, e3, -, -⟩ := idx_facts t
  show V c main_v61 (((cfg4.win 1).blk t).view.emb (ix2 k b)) = V c main_v61 (ix2 k b)
  refine congrArg (V c main_v61) (funext fun d => Fin.ext ?_)
  match d with
  | ⟨0, _⟩ => show win4_1.index t (0 : Fin 2) * 1 + 1 * k.val = k.val; rw [e2]; omega
  | ⟨1, _⟩ => show win4_1.index t (1 : Fin 2) * 64 + 1 * b.val = b.val; rw [e3]; omega

/-- What point `t` writes back is block `t` of the whole-array function. -/
theorem flushed_eq (c : Dev nD) (b : FVec Ideal Cert.ReferenceIdeal.S64 .f32)
    (hβ : ∀ q : Fin 64, V c main_v61 (ix2 (0 : Fin 1) q) = b (ix1 q)) (t : Fin cfg4.N) :
    (dat4 V c).flushed 2 t = ((cfg4.win 2).blk t).view.read (Elt Ideal) (maximumf (F := Ideal) (addf (F := Ideal) (φ := .f32) (V c main_v60) (Cert.ReferenceIdeal.Read.val_main_v31 (F := Ideal) b)) (Cert.ReferenceIdeal.Read.val_main_call0_v0 (F := Ideal))) := by
  show (cfg4.win 2).cut (grid4.coords t) ((dat4 V c).after 2 t) = _
  rw [after4_2]
  unfold out4_2
  rw [View.canon_unit_zero hz]
  simp only [View.ld_unit_zero (S := S5000x64) hz, View.ld_unit_zero (S := S1x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg4.win 2).blk t).view.emb (ix2 a b') = ix2 (blockRow (Fin.cast hN t) a) b' := funext fun d => Fin.ext (by
    match d with
    | ⟨0, _⟩ => show win4_2.index t (0 : Fin 2) * 5000 + 1 * a.val = t.val * 5000 + a.val; rw [eo0]; omega
    | ⟨1, _⟩ => show win4_2.index t (1 : Fin 2) * 64 + 1 * b'.val = b'.val; rw [eo1]; omega)
  show k4_pay1 (iblk4 V c 0 t) (iblk4 V c 1 t) (ix2 a b')
    = (maximumf (F := Ideal) (addf (F := Ideal) (φ := .f32) (V c main_v60) (Cert.ReferenceIdeal.Read.val_main_v31 (F := Ideal) b)) (Cert.ReferenceIdeal.Read.val_main_call0_v0 (F := Ideal))) (((cfg4.win 2).blk t).view.emb (ix2 a b'))
  rw [eo]
  rw [show @k4_pay1 Ideal _ = @k2_pay1 Ideal _ from rfl]
  refine (Blocks.biasMax_at _ _ a b').trans ?_
  refine Eq.trans ?_ (Cert.Bridge.biasMax_at _ _ _ b').symm
  rw [in0_at, in1_at, hβ]

/-- An index is in point `t`'s output block iff each coordinate is in the block's range. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Row `r` lies in block `r / 5000`. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have ht : (i 0).val / 5000 < cfg4.N := by rw [hN]; omega
  obtain ⟨-, -, -, -, eo0, eo1⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [eo1]; omega

/-- The region's output array as one function of the arrays it finds. -/
theorem final (c : Dev nD) (b : FVec Ideal Cert.ReferenceIdeal.S64 .f32)
    (hβ : ∀ q : Fin 64, V c main_v61 (ix2 (0 : Fin 1) q) = b (ix1 q)) :
    (dat4 V c).arrAt 2 cfg4.N = maximumf (F := Ideal) (addf (F := Ideal) (φ := .f32) (V c main_v60) (Cert.ReferenceIdeal.Read.val_main_v31 (F := Ideal) b)) (Cert.ReferenceIdeal.Read.val_main_call0_v0 (F := Ideal)) :=
  (dat4 V c).arrAt_eq_of_cover 2 _ (fun t _ => flushed_eq V c b hβ t) cover

end Cert.KernelIdeal.Region4

end
-- ==== Proof.Region5.lean ====
/-
  A product region (`h · W`), as one array.

  The region walks ten blocks of 5000 rows. Block `t` of the input array is rows `5000 t … 5000 t + 4999`, the weight
  matrix is fetched whole at every point, and block `t` of the output receives the block product. Row `a` of block `t` is
  row `5000 t + a` of the array, so what point `t` writes back is block `t` of the whole product of the arrays the region
  finds; the ten blocks tile the 50000 rows, so the output array ends as that product.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg5.N = 10 := N_5

/-- The printed index maps over the grid: the row blocks follow the point, everything else sits at block 0. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Row `a`, column `k` of the input block at point `t` is row `5000 t + a` of the array. -/
theorem in0_at (c : Dev nD) (t : Fin cfg5.N) (a : Fin 5000) (k : Fin 64) :
    iblk5 V c 0 t (ix2 a k) = V c main_v62 (ix2 (blockRow (Fin.cast hN t) a) k) := by
  obtain ⟨e0, e1, -, -, -, -⟩ := idx_facts t
  show V c main_v62 (((cfg5.win 0).blk t).view.emb (ix2 a k)) = V c main_v62 (ix2 (blockRow (Fin.cast hN t) a) k)
  refine congrArg (V c main_v62) (funext fun d => Fin.ext ?_)
  match d with
  | ⟨0, _⟩ => show win5_0.index t (0 : Fin 2) * 5000 + 1 * a.val = t.val * 5000 + a.val; rw [e0]; omega
  | ⟨1, _⟩ => show win5_0.index t (1 : Fin 2) * 64 + 1 * k.val = k.val; rw [e1]; omega

/-- Window 1's block at any point is its whole array. -/
theorem in1_at (c : Dev nD) (t : Fin cfg5.N) (k : Fin 64) (b : Fin 64) :
    iblk5 V c 1 t (ix2 k b) = V c main_arg8 (ix2 k b) := by
  obtain ⟨-, -, e2, e3, -, -⟩ := idx_facts t
  show V c main_arg8 (((cfg5.win 1).blk t).view.emb (ix2 k b)) = V c main_arg8 (ix2 k b)
  refine congrArg (V c main_arg8) (funext fun d => Fin.ext ?_)
  match d with
  | ⟨0, _⟩ => show win5_1.index t (0 : Fin 2) * 64 + 1 * k.val = k.val; rw [e2]; omega
  | ⟨1, _⟩ => show win5_1.index t (1 : Fin 2) * 64 + 1 * b.val = b.val; rw [e3]; omega

/-- What point `t` writes back is block `t` of the whole-array function. -/
theorem flushed_eq (c : Dev nD) (t : Fin cfg5.N) :
    (dat5 V c).flushed 2 t = ((cfg5.win 2).blk t).view.read (Elt Ideal) (Host.dotGeneral (F := Ideal) (φ₁ := .f32) (φ₂ := .f32) rd none (V c main_v62) (V c main_arg8)) := by
  show (cfg5.win 2).cut (grid5.coords t) ((dat5 V c).after 2 t) = _
  rw [after5_2]
  unfold out5_2
  rw [View.canon_unit_zero hz]
  simp only [View.ld_unit_zero (S := S5000x64) hz, View.ld_unit_zero (S := S64x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg5.win 2).blk t).view.emb (ix2 a b') = ix2 (blockRow (Fin.cast hN t) a) b' := funext fun d => Fin.ext (by
    match d with
    | ⟨0, _⟩ => show win5_2.index t (0 : Fin 2) * 5000 + 1 * a.val = t.val * 5000 + a.val; rw [eo0]; omega
    | ⟨1, _⟩ => show win5_2.index t (1 : Fin 2) * 64 + 1 * b'.val = b'.val; rw [eo1]; omega)
  show k5_pay1 (iblk5 V c 0 t) (iblk5 V c 1 t) (ix2 a b')
    = (Host.dotGeneral (F := Ideal) (φ₁ := .f32) (φ₂ := .f32) rd none (V c main_v62) (V c main_arg8)) (((cfg5.win 2).blk t).view.emb (ix2 a b'))
  rw [eo]
  rw [show @k5_pay1 Ideal _ = @k1_pay1 Ideal _ from rfl]
  refine (Blocks.product_at _ _ a b').trans ?_
  refine Eq.trans ?_ (Cert.Bridge.product_at _ _ _ b').symm
  exact Finset.sum_congr rfl fun k _ => by rw [in0_at, in1_at]

/-- An index is in point `t`'s output block iff each coordinate is in the block's range. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v63).slice (win5_2.rect t)).set ↔ _
  rw [View.set_slice_whole, Rect.mem_set_unit]
  exact Iff.rfl

/-- Row `r` lies in block `r / 5000`. -/
theorem cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have ht : (i 0).val / 5000 < cfg5.N := by rw [hN]; omega
  obtain ⟨-, -, -, -, eo0, eo1⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [eo1]; omega

/-- The region's output array as one function of the arrays it finds. -/
theorem final (c : Dev nD) :
    (dat5 V c).arrAt 2 cfg5.N = Host.dotGeneral (F := Ideal) (φ₁ := .f32) (φ₂ := .f32) rd none (V c main_v62) (V c main_arg8) :=
  (dat5 V c).arrAt_eq_of_cover 2 _ (fun t _ => flushed_eq V c t) cover

end Cert.KernelIdeal.Region5

end
-- ==== Proof.Region6.lean ====
/-
  The last region (`agg + b`), as one array.

  The region walks ten blocks of 5000 rows of the aggregated array; the bias row is fetched whole at every point. Row `a`
  of block `t` is row `5000 t + a` of the array, so what point `t` writes back is block `t` of `agg + b` with the bias
  broadcast down the rows, once the bias row the region finds is known to hold the bias vector; the ten blocks tile the
  50000 rows.
-/
import proofs.«146050_j71244917506340_1_alg».proof.Proof.Gen.KernelIdeal.Frame
import proofs.«146050_j71244917506340_1_alg».proof.Proof.Blocks
import proofs.«146050_j71244917506340_1_alg».proof.Proof.RefOps
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bridge (blockRow)

variable (V : (c : Dev nD) → (b : Ref sig .tc) → Buf (Elt Ideal) ((c : Thread nD τ).loc b))

local notation "rd" => Cert.ReferenceIdeal.dot_S50000x64_S64x64_S50000x64_1_0_0_1_n_n

theorem hz : (![0, 0] : Fin 2 → Nat) = fun _ => 0 := funext fun a => by fin_cases a <;> rfl

theorem hN : cfg6.N = 10 := N_6

/-- The printed index maps over the grid: the row blocks follow the point, everything else sits at block 0. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- Row `a`, column `k` of the input block at point `t` is row `5000 t + a` of the array. -/
theorem in0_at (c : Dev nD) (t : Fin cfg6.N) (a : Fin 5000) (k : Fin 64) :
    iblk6 V c 0 t (ix2 a k) = V c main_v76 (ix2 (blockRow (Fin.cast hN t) a) k) := by
  obtain ⟨e0, e1, -, -, -, -⟩ := idx_facts t
  show V c main_v76 (((cfg6.win 0).blk t).view.emb (ix2 a k)) = V c main_v76 (ix2 (blockRow (Fin.cast hN t) a) k)
  refine congrArg (V c main_v76) (funext fun d => Fin.ext ?_)
  match d with
  | ⟨0, _⟩ => show win6_0.index t (0 : Fin 2) * 5000 + 1 * a.val = t.val * 5000 + a.val; rw [e0]; omega
  | ⟨1, _⟩ => show win6_0.index t (1 : Fin 2) * 64 + 1 * k.val = k.val; rw [e1]; omega

/-- Window 1's block at any point is its whole array. -/
theorem in1_at (c : Dev nD) (t : Fin cfg6.N) (k : Fin 1) (b : Fin 64) :
    iblk6 V c 1 t (ix2 k b) = V c main_v77 (ix2 k b) := by
  obtain ⟨-, -, e2, e3, -, -⟩ := idx_facts t
  show V c main_v77 (((cfg6.win 1).blk t).view.emb (ix2 k b)) = V c main_v77 (ix2 k b)
  refine congrArg (V c main_v77) (funext fun d => Fin.ext ?_)
  match d with
  | ⟨0, _⟩ => show win6_1.index t (0 : Fin 2) * 1 + 1 * k.val = k.val; rw [e2]; omega
  | ⟨1, _⟩ => show win6_1.index t (1 : Fin 2) * 64 + 1 * b.val = b.val; rw [e3]; omega

/-- What point `t` writes back is block `t` of the whole-array function. -/
theorem flushed_eq (c : Dev nD) (b : FVec Ideal Cert.ReferenceIdeal.S64 .f32)
    (hβ : ∀ q : Fin 64, V c main_v77 (ix2 (0 : Fin 1) q) = b (ix1 q)) (t : Fin cfg6.N) :
    (dat6 V c).flushed 2 t = ((cfg6.win 2).blk t).view.read (Elt Ideal) (addf (F := Ideal) (φ := .f32) (V c main_v76) (Cert.ReferenceIdeal.Read.val_main_v31 (F := Ideal) b)) := by
  show (cfg6.win 2).cut (grid6.coords t) ((dat6 V c).after 2 t) = _
  rw [after6_2]
  unfold out6_2
  rw [View.canon_unit_zero hz]
  simp only [View.ld_unit_zero (S := S5000x64) hz, View.ld_unit_zero (S := S1x64) hz]
  funext y
  obtain ⟨a, b', rfl⟩ : ∃ (a : Fin 5000) (b' : Fin 64), y = ix2 a b' := ⟨y 0, y 1, eq_ix2 y⟩
  obtain ⟨-, -, -, -, eo0, eo1⟩ := idx_facts t
  have eo : ((cfg6.win 2).blk t).view.emb (ix2 a b') = ix2 (blockRow (Fin.cast hN t) a) b' := funext fun d => Fin.ext (by
    match d with
    | ⟨0, _⟩ => show win6_2.index t (0 : Fin 2) * 5000 + 1 * a.val = t.val * 5000 + a.val; rw [eo0]; omega
    | ⟨1, _⟩ => show win6_2.index t (1 : Fin 2) * 64 + 1 * b'.val = b'.val; rw [eo1]; omega)
  show k6_pay1 (iblk6 V c 0 t) (iblk6 V c 1 t) (ix2 a b')
    = (addf (F := Ideal) (φ := .f32) (V c main_v76) (Cert.ReferenceIdeal.Read.val_main_v31 (F := Ideal) b)) (((cfg6.win 2).blk t).view.emb (ix2 a b'))
  rw [eo]
  refine (Blocks.bias_at _ _ a b').trans ?_
  refine Eq.trans ?_ (Cert.Bridge.bias_at _ _ _ b').symm
  rw [in0_at, in1_at, hβ]

/-- An index is in point `t`'s output block iff each coordinate is in the block's range. -/
theorem mem_blk (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v78).slice (win6_2.rect t)).set ↔ _
  rw [View.set_slice_whole, Rect.mem_set_unit]
  exact Iff.rfl

/-- Row `r` lies in block `r / 5000`. -/
theorem cover (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have ht : (i 0).val / 5000 < cfg6.N := by rw [hN]; omega
  obtain ⟨-, -, -, -, eo0, eo1⟩ := idx_facts ⟨(i 0).val / 5000, ht⟩
  refine ⟨⟨(i 0).val / 5000, ht⟩, flush6_2 _, ?_⟩
  rw [mem_blk]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win6_2.index ⟨(i 0).val / 5000, ht⟩ (1 : Fin 2) * 64 ≤ (i 1).val ∧ (i 1).val < win6_2.index ⟨(i 0).val / 5000, ht⟩ (1 : Fin 2) * 64 + 64
    rw [eo1]; omega

/-- The region's output array as one function of the arrays it finds. -/
theorem final (c : Dev nD) (b : FVec Ideal Cert.ReferenceIdeal.S64 .f32)
    (hβ : ∀ q : Fin 64, V c main_v77 (ix2 (0 : Fin 1) q) = b (ix1 q)) :
    (dat6 V c).arrAt 2 cfg6.N = addf (F := Ideal) (φ := .f32) (V c main_v76) (Cert.ReferenceIdeal.Read.val_main_v31 (F := Ideal) b) :=
  (dat6 V c).arrAt_eq_of_cover 2 _ (fun t _ => flushed_eq V c b hβ t) cover

end Cert.KernelIdeal.Region6

end
-- ==== Proof.Chain.lean ====
/-
  The idealized kernel's result, stage by stage, against the reference's stages.

  The kernel's program and the reference compute the same three-layer graph convolution. Both build, from the edge list,
  the source and destination index vectors (the edges followed by one self loop per node) and the per-edge weight
  `rsqrt(max(deg,ε))[src] · rsqrt(max(deg,ε))[dst]` with the same host operations; the kernel then replaces each dense
  stage of the reference by a region:

      h₀ = max (x · W_in + b_in) 0              region 0
      hw = h · W                                  regions 1, 3, 5
      agg = scatter-add over dst of hw[src] · weight     the same host operations on both sides
      h' = max (agg + b) 0                       regions 2, 4;   out = agg + b    region 6

  The buffer contents at the eleven boundaries of the kernel's run are a fold from the launch memory. Walking that fold,
  each buffer a later stage reads is identified with the reference's stage of the same name: a region's output array by
  that region's whole-array form, a host stretch's result by reading the stretch's operations, and a buffer nobody writes
  in between by carrying it along. The last boundary's result buffer is the reference's result.
-/
import proofs.«146050_j71244917506340_1_alg».proof.Proof.Gen.KernelIdeal.Frame
import proofs.«146050_j71244917506340_1_alg».proof.Proof.Gen.ReferenceIdeal.Read
import proofs.«146050_j71244917506340_1_alg».proof.Proof.Region0
import proofs.«146050_j71244917506340_1_alg».proof.Proof.Region1
import proofs.«146050_j71244917506340_1_alg».proof.Proof.Region2
import proofs.«146050_j71244917506340_1_alg».proof.Proof.Region3
import proofs.«146050_j71244917506340_1_alg».proof.Proof.Region4
import proofs.«146050_j71244917506340_1_alg».proof.Proof.Region5
import proofs.«146050_j71244917506340_1_alg».proof.Proof.Region6
import Idealize.ShloMosaic.Lib.StableHlo.Run
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Read

variable (m : (ℓ : Loc nD τ sig) → Buf (Elt Ideal) ℓ) (ρ : Dev nD → PrngReg) (c : Dev nD)

local notation "rd" => Cert.ReferenceIdeal.dot_S50000x64_S64x64_S50000x64_1_0_0_1_n_n
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-- Read a host stretch's operations at one buffer, then close by unfolding. -/
local macro "host_read" : tactic => `(tactic| (after_results <;> rfl))

/-! ## Carrying a buffer nobody writes -/

theorem down3 (b : Ref sig .tc) (h0 : ∀ w, Pipeline.arrRef spec0 w ≠ b) (h1 : ∀ w, Pipeline.arrRef spec1 w ≠ b) :
    W3 m ρ c (Proc.devRef .tc b) = W1 m ρ c (Proc.devRef .tc b) :=
  (W3_of_ne m ρ c b h1).trans (W2_of_ne m ρ c b h0)
theorem down6 (b : Ref sig .tc) (h2 : ∀ w, Pipeline.arrRef spec2 w ≠ b) (h3 : ∀ w, Pipeline.arrRef spec3 w ≠ b)
    (hh : StableHlo.after hostOps2 (W3 m ρ c) (Proc.devRef .tc b) = W3 m ρ c (Proc.devRef .tc b)) :
    W6 m ρ c (Proc.devRef .tc b) = W3 m ρ c (Proc.devRef .tc b) :=
  ((W6_of_ne m ρ c b h3).trans (W5_of_ne m ρ c b h2)).trans hh
theorem down9 (b : Ref sig .tc) (h4 : ∀ w, Pipeline.arrRef spec4 w ≠ b) (h5 : ∀ w, Pipeline.arrRef spec5 w ≠ b)
    (hh : StableHlo.after hostOps4 (W6 m ρ c) (Proc.devRef .tc b) = W6 m ρ c (Proc.devRef .tc b)) :
    W9 m ρ c (Proc.devRef .tc b) = W6 m ρ c (Proc.devRef .tc b) :=
  ((W9_of_ne m ρ c b h5).trans (W8_of_ne m ρ c b h4)).trans hh

/-! ## After the first host stretch: the arguments, the first bias row, and the graph's three vectors -/

theorem w1_arg0 : W1 m ρ c (Proc.devRef .tc main_arg0) = a0 := by
  show StableHlo.after hostOps0 (W0 m ρ c) (Proc.devRef .tc main_arg0) = _; host_read
theorem w1_arg2 : W1 m ρ c (Proc.devRef .tc main_arg2) = a2 := by
  show StableHlo.after hostOps0 (W0 m ρ c) (Proc.devRef .tc main_arg2) = _; host_read
theorem w1_arg4 : W1 m ρ c (Proc.devRef .tc main_arg4) = a4 := by
  show StableHlo.after hostOps0 (W0 m ρ c) (Proc.devRef .tc main_arg4) = _; host_read
theorem w1_arg5 : W1 m ρ c (Proc.devRef .tc main_arg5) = a5 := by
  show StableHlo.after hostOps0 (W0 m ρ c) (Proc.devRef .tc main_arg5) = _; host_read
theorem w1_arg6 : W1 m ρ c (Proc.devRef .tc main_arg6) = a6 := by
  show StableHlo.after hostOps0 (W0 m ρ c) (Proc.devRef .tc main_arg6) = _; host_read
theorem w1_arg7 : W1 m ρ c (Proc.devRef .tc main_arg7) = a7 := by
  show StableHlo.after hostOps0 (W0 m ρ c) (Proc.devRef .tc main_arg7) = _; host_read
theorem w1_arg8 : W1 m ρ c (Proc.devRef .tc main_arg8) = a8 := by
  show StableHlo.after hostOps0 (W0 m ρ c) (Proc.devRef .tc main_arg8) = _; host_read
theorem w1_arg9 : W1 m ρ c (Proc.devRef .tc main_arg9) = a9 := by
  show StableHlo.after hostOps0 (W0 m ρ c) (Proc.devRef .tc main_arg9) = _; host_read

/-- The first bias row holds the first bias vector. -/
theorem w1_row (q : Fin 64) : W1 m ρ c (Proc.devRef .tc main_v29) (ix2 (0 : Fin 1) q) = a3 (ix1 q) := by
  have e : W1 m ρ c (Proc.devRef .tc main_v29) = shapeCast S1x64 a3 shapeCasts_S64_S1x64 := by
    show StableHlo.after hostOps0 (W0 m ρ c) (Proc.devRef .tc main_v29) = _; host_read
  rw [e]; exact shapeCast_a_1a_apply _ _ 0 q

/-- The source vector, the destination vector and the edge weights are the reference's. -/
theorem w1_src : W1 m ρ c (Proc.devRef .tc main_v5) = val_main_v3 (F := Ideal) a1 := by
  show StableHlo.after hostOps0 (W0 m ρ c) (Proc.devRef .tc main_v5) = _; host_read
theorem w1_dst : W1 m ρ c (Proc.devRef .tc main_v6) = val_main_v6 (F := Ideal) a1 := by
  show StableHlo.after hostOps0 (W0 m ρ c) (Proc.devRef .tc main_v6) = _; host_read
set_option maxHeartbeats 4000000 in
theorem w1_wgt : W1 m ρ c (Proc.devRef .tc main_v28) = val_main_v28 (F := Ideal) a1 := by
  show StableHlo.after hostOps0 (W0 m ρ c) (Proc.devRef .tc main_v28) = _
  after_results_simp <;> rfl

/-! ## Layer 0 and the first product -/

theorem w2_h0 : W2 m ρ c (Proc.devRef .tc main_v30) = val_main_v33 (F := Ideal) a0 a2 a3 := by
  refine (W2_arr m ρ c 3).trans ((Region0.final (V1 m ρ) c a3 (w1_row m ρ c)).trans ?_)
  show val_main_v33 (F := Ideal) (W1 m ρ c (Proc.devRef .tc main_arg0)) (W1 m ρ c (Proc.devRef .tc main_arg2)) a3 = _
  rw [w1_arg0, w1_arg2]
theorem w2_arg4 : W2 m ρ c (Proc.devRef .tc main_arg4) = a4 :=
  (W2_of_ne m ρ c main_arg4 (by decide)).trans (w1_arg4 m ρ c)

theorem w3_hw : W3 m ρ c (Proc.devRef .tc main_v31) = val_main_v34 (F := Ideal) a0 a2 a3 a4 := by
  refine (W3_arr m ρ c 2).trans ((Region1.final (V2 m ρ) c).trans ?_)
  show Host.dotGeneral (F := Ideal) (φ₁ := .f32) (φ₂ := .f32) rd none (W2 m ρ c (Proc.devRef .tc main_v30)) (W2 m ρ c (Proc.devRef .tc main_arg4)) = _
  rw [w2_h0, w2_arg4]; rfl
theorem w3_src : W3 m ρ c (Proc.devRef .tc main_v5) = val_main_v3 (F := Ideal) a1 :=
  (down3 m ρ c main_v5 (by decide) (by decide)).trans (w1_src m ρ c)
theorem w3_dst : W3 m ρ c (Proc.devRef .tc main_v6) = val_main_v6 (F := Ideal) a1 :=
  (down3 m ρ c main_v6 (by decide) (by decide)).trans (w1_dst m ρ c)
theorem w3_wgt : W3 m ρ c (Proc.devRef .tc main_v28) = val_main_v28 (F := Ideal) a1 :=
  (down3 m ρ c main_v28 (by decide) (by decide)).trans (w1_wgt m ρ c)
theorem w3_arg5 : W3 m ρ c (Proc.devRef .tc main_arg5) = a5 :=
  (down3 m ρ c main_arg5 (by decide) (by decide)).trans (w1_arg5 m ρ c)
theorem w3_arg6 : W3 m ρ c (Proc.devRef .tc main_arg6) = a6 :=
  (down3 m ρ c main_arg6 (by decide) (by decide)).trans (w1_arg6 m ρ c)
theorem w3_arg7 : W3 m ρ c (Proc.devRef .tc main_arg7) = a7 :=
  (down3 m ρ c main_arg7 (by decide) (by decide)).trans (w1_arg7 m ρ c)
theorem w3_arg8 : W3 m ρ c (Proc.devRef .tc main_arg8) = a8 :=
  (down3 m ρ c main_arg8 (by decide) (by decide)).trans (w1_arg8 m ρ c)
theorem w3_arg9 : W3 m ρ c (Proc.devRef .tc main_arg9) = a9 :=
  (down3 m ρ c main_arg9 (by decide) (by decide)).trans (w1_arg9 m ρ c)

/-! ## Layer 1 -/

set_option maxHeartbeats 4000000 in
theorem w4_agg : W4 m ρ c (Proc.devRef .tc main_v44) = val_main_v47 (F := Ideal) a0 a1 a2 a3 a4 := by
  show StableHlo.after hostOps2 (W3 m ρ c) (Proc.devRef .tc main_v44) = _
  after_results
  rw [w3_hw, w3_src, w3_dst, w3_wgt]; rfl
theorem w4_row (q : Fin 64) : W4 m ρ c (Proc.devRef .tc main_v45) (ix2 (0 : Fin 1) q) = a5 (ix1 q) := by
  have e : W4 m ρ c (Proc.devRef .tc main_v45) = shapeCast S1x64 a5 shapeCasts_S64_S1x64 := by
    show StableHlo.after hostOps2 (W3 m ρ c) (Proc.devRef .tc main_v45) = _
    after_results
    rw [w3_arg5]; rfl
  rw [e]; exact shapeCast_a_1a_apply _ _ 0 q

theorem w5_h1 : W5 m ρ c (Proc.devRef .tc main_v46) = val_main_v51 (F := Ideal) a0 a1 a2 a3 a4 a5 := by
  refine (W5_arr m ρ c 2).trans ((Region2.final (V4 m ρ) c a5 (w4_row m ρ c)).trans ?_)
  show maximumf (F := Ideal) (addf (F := Ideal) (φ := .f32) (W4 m ρ c (Proc.devRef .tc main_v44)) (val_main_v31 (F := Ideal) a5)) (val_main_call0_v0 (F := Ideal)) = _
  rw [w4_agg]; rfl
theorem w5_arg6 : W5 m ρ c (Proc.devRef .tc main_arg6) = a6 := by
  refine (W5_of_ne m ρ c main_arg6 (by decide)).trans (Eq.trans ?_ (w3_arg6 m ρ c))
  show StableHlo.after hostOps2 (W3 m ρ c) (Proc.devRef .tc main_arg6) = _; after_results

theorem w6_hw : W6 m ρ c (Proc.devRef .tc main_v47) = val_main_v52 (F := Ideal) a0 a1 a2 a3 a4 a5 a6 := by
  refine (W6_arr m ρ c 2).trans ((Region3.final (V5 m ρ) c).trans ?_)
  show Host.dotGeneral (F := Ideal) (φ₁ := .f32) (φ₂ := .f32) rd none (W5 m ρ c (Proc.devRef .tc main_v46)) (W5 m ρ c (Proc.devRef .tc main_arg6)) = _
  rw [w5_h1, w5_arg6]; rfl
theorem w6_src : W6 m ρ c (Proc.devRef .tc main_v5) = val_main_v3 (F := Ideal) a1 :=
  (down6 m ρ c main_v5 (by decide) (by decide) (by after_results)).trans (w3_src m ρ c)
theorem w6_dst : W6 m ρ c (Proc.devRef .tc main_v6) = val_main_v6 (F := Ideal) a1 :=
  (down6 m ρ c main_v6 (by decide) (by decide) (by after_results)).trans (w3_dst m ρ c)
theorem w6_wgt : W6 m ρ c (Proc.devRef .tc main_v28) = val_main_v28 (F := Ideal) a1 :=
  (down6 m ρ c main_v28 (by decide) (by decide) (by after_results)).trans (w3_wgt m ρ c)
theorem w6_arg7 : W6 m ρ c (Proc.devRef .tc main_arg7) = a7 :=
  (down6 m ρ c main_arg7 (by decide) (by decide) (by after_results)).trans (w3_arg7 m ρ c)
theorem w6_arg8 : W6 m ρ c (Proc.devRef .tc main_arg8) = a8 :=
  (down6 m ρ c main_arg8 (by decide) (by decide) (by after_results)).trans (w3_arg8 m ρ c)
theorem w6_arg9 : W6 m ρ c (Proc.devRef .tc main_arg9) = a9 :=
  (down6 m ρ c main_arg9 (by decide) (by decide) (by after_results)).trans (w3_arg9 m ρ c)

/-! ## Layer 2 -/

set_option maxHeartbeats 4000000 in
theorem w7_agg : W7 m ρ c (Proc.devRef .tc main_v60) = val_main_v65 (F := Ideal) a0 a1 a2 a3 a4 a5 a6 := by
  show StableHlo.after hostOps4 (W6 m ρ c) (Proc.devRef .tc main_v60) = _
  after_results
  rw [w6_hw, w6_src, w6_dst, w6_wgt]; rfl
theorem w7_row (q : Fin 64) : W7 m ρ c (Proc.devRef .tc main_v61) (ix2 (0 : Fin 1) q) = a7 (ix1 q) := by
  have e : W7 m ρ c (Proc.devRef .tc main_v61) = shapeCast S1x64 a7 shapeCasts_S64_S1x64 := by
    show StableHlo.after hostOps4 (W6 m ρ c) (Proc.devRef .tc main_v61) = _
    after_results
    rw [w6_arg7]; rfl
  rw [e]; exact shapeCast_a_1a_apply _ _ 0 q

theorem w8_h2 : W8 m ρ c (Proc.devRef .tc main_v62) = val_main_v69 (F := Ideal) a0 a1 a2 a3 a4 a5 a6 a7 := by
  refine (W8_arr m ρ c 2).trans ((Region4.final (V7 m ρ) c a7 (w7_row m ρ c)).trans ?_)
  show maximumf (F := Ideal) (addf (F := Ideal) (φ := .f32) (W7 m ρ c (Proc.devRef .tc main_v60)) (val_main_v31 (F := Ideal) a7)) (val_main_call0_v0 (F := Ideal)) = _
  rw [w7_agg]; rfl
theorem w8_arg8 : W8 m ρ c (Proc.devRef .tc main_arg8) = a8 := by
  refine (W8_of_ne m ρ c main_arg8 (by decide)).trans (Eq.trans ?_ (w6_arg8 m ρ c))
  show StableHlo.after hostOps4 (W6 m ρ c) (Proc.devRef .tc main_arg8) = _; after_results

theorem w9_hw : W9 m ρ c (Proc.devRef .tc main_v63) = val_main_v70 (F := Ideal) a0 a1 a2 a3 a4 a5 a6 a7 a8 := by
  refine (W9_arr m ρ c 2).trans ((Region5.final (V8 m ρ) c).trans ?_)
  show Host.dotGeneral (F := Ideal) (φ₁ := .f32) (φ₂ := .f32) rd none (W8 m ρ c (Proc.devRef .tc main_v62)) (W8 m ρ c (Proc.devRef .tc main_arg8)) = _
  rw [w8_h2, w8_arg8]; rfl
theorem w9_src : W9 m ρ c (Proc.devRef .tc main_v5) = val_main_v3 (F := Ideal) a1 :=
  (down9 m ρ c main_v5 (by decide) (by decide) (by after_results)).trans (w6_src m ρ c)
theorem w9_dst : W9 m ρ c (Proc.devRef .tc main_v6) = val_main_v6 (F := Ideal) a1 :=
  (down9 m ρ c main_v6 (by decide) (by decide) (by after_results)).trans (w6_dst m ρ c)
theorem w9_wgt : W9 m ρ c (Proc.devRef .tc main_v28) = val_main_v28 (F := Ideal) a1 :=
  (down9 m ρ c main_v28 (by decide) (by decide) (by after_results)).trans (w6_wgt m ρ c)
theorem w9_arg9 : W9 m ρ c (Proc.devRef .tc main_arg9) = a9 :=
  (down9 m ρ c main_arg9 (by decide) (by decide) (by after_results)).trans (w6_arg9 m ρ c)

/-! ## Layer 3 -/

set_option maxHeartbeats 4000000 in
theorem w10_agg : W10 m ρ c (Proc.devRef .tc main_v76) = val_main_v83 (F := Ideal) a0 a1 a2 a3 a4 a5 a6 a7 a8 := by
  show StableHlo.after hostOps6 (W9 m ρ c) (Proc.devRef .tc main_v76) = _
  after_results
  rw [w9_hw, w9_src, w9_dst, w9_wgt]; rfl
theorem w10_row (q : Fin 64) : W10 m ρ c (Proc.devRef .tc main_v77) (ix2 (0 : Fin 1) q) = a9 (ix1 q) := by
  have e : W10 m ρ c (Proc.devRef .tc main_v77) = shapeCast S1x64 a9 shapeCasts_S64_S1x64 := by
    show StableHlo.after hostOps6 (W9 m ρ c) (Proc.devRef .tc main_v77) = _
    after_results
    rw [w9_arg9]; rfl
  rw [e]; exact shapeCast_a_1a_apply _ _ 0 q

/-- THE RESULT: the last boundary's result buffer holds the reference's result of the launch arguments. -/
theorem result : W11 m ρ c (Proc.devRef .tc main_v78) = val_main_v86 (F := Ideal) a0 a1 a2 a3 a4 a5 a6 a7 a8 a9 := by
  refine (W11_arr m ρ c 2).trans ((Region6.final (V10 m ρ) c a9 (w10_row m ρ c)).trans ?_)
  show addf (F := Ideal) (φ := .f32) (W10 m ρ c (Proc.devRef .tc main_v76)) (val_main_v31 (F := Ideal) a9) = _
  rw [w10_agg]; rfl

end Cert.KernelIdeal.Chain

end
-- ==== Proof.lean ====
/-
  A three-layer graph convolution, the dense stages in seven regions, against its plain reference.

  Both programs take node features `x` (50000 × 64), an edge list (2 × 1600000), and four weight matrices with their bias
  vectors. Both append one self loop per node to the edges, count each node's incoming edges, take
  `d = rsqrt (max deg 1e-12)`, weigh edge `e` by `d[src e] · d[dst e]`, and then compute

      h₀ = max (x · W_in + b_in) 0,
      hₗ₊₁ = max (A (hₗ · Wₗ) + bₗ) 0   for the two hidden layers,        out = A (h₂ · W₃) + b₃,

  where `A z` gathers the rows of `z` at the sources, scales them by the edge weights and adds them up at the
  destinations. The index vectors, the weights and `A` are the same host operations in both programs. The kernel's
  program computes `max (x · W_in + b_in) 0`, each product `h · W` and each `max (agg + b) 0` (the last without the
  maximum) in a region of ten blocks of 5000 rows; the reference computes them as whole-array operations.

  On the extended reals a change of float format is the identity and a product into a zero accumulator is the plain sum
  over the contracted axis, so each region's output array is the reference's operation of the arrays the region finds
  (the region modules), and walking the kernel's run from boundary to boundary identifies every buffer with the
  reference's stage of the same meaning (the chain module). No law beyond that is used: the two sides are the same
  operations in the same order, so the precondition is not opened.

  The three frames are the generated frame certificates (the reference's is its generated run with the result dropped);
  the idealization rewrote nothing, so `preserves` is trivial.
-/
import proofs.«146050_j71244917506340_1_alg».proof.Defs
import proofs.«146050_j71244917506340_1_alg».proof.Proof.Gen.Kernel
import proofs.«146050_j71244917506340_1_alg».proof.Proof.Gen.Kernel.Skeleton
import proofs.«146050_j71244917506340_1_alg».proof.Proof.Gen.Kernel.Launch
import proofs.«146050_j71244917506340_1_alg».proof.Proof.Gen.Kernel.Points
import proofs.«146050_j71244917506340_1_alg».proof.Proof.Gen.Kernel.Frame
import proofs.«146050_j71244917506340_1_alg».proof.Proof.Gen.KernelIdeal
import proofs.«146050_j71244917506340_1_alg».proof.Proof.Gen.KernelIdeal.Skeleton
import proofs.«146050_j71244917506340_1_alg».proof.Proof.Gen.KernelIdeal.Launch
import proofs.«146050_j71244917506340_1_alg».proof.Proof.Gen.KernelIdeal.Points
import proofs.«146050_j71244917506340_1_alg».proof.Proof.Gen.KernelIdeal.Frame
import proofs.«146050_j71244917506340_1_alg».proof.Proof.Gen.ReferenceIdeal
import proofs.«146050_j71244917506340_1_alg».proof.Proof.Gen.Pre_finite_inputs
import proofs.«146050_j71244917506340_1_alg».proof.Proof.Gen.ReferenceIdeal.Run
import proofs.«146050_j71244917506340_1_alg».proof.Proof.Gen.ReferenceIdeal.Read
import proofs.«146050_j71244917506340_1_alg».proof.Proof.KernelRun
import proofs.«146050_j71244917506340_1_alg».proof.Proof.Chain
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, the kernel's result buffer at the last boundary's contents
    and the reference's at its composed term; the chain identifies the two. -/
theorem algebraic : Cert.algebraic_KernelIdeal_ReferenceIdeal := by
  intro m ρ m' ρ' _ hagree
  refine ⟨fun c => Cert.KernelIdeal.Gen.W11 m ρ c (Proc.devRef .tc Cert.KernelIdeal.main_v78),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v86_eq, h0, h1, h2, h3, h4, h5, h6, h7, h8, h9]
  exact (Cert.KernelIdeal.Chain.result m ρ c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
